-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x1024x256 : Shape := ⟨4, ![32, 4, 1024, 256]⟩
abbrev S256x513 : Shape := ⟨2, ![256, 513]⟩
abbrev S513 : Shape := ⟨1, ![513]⟩
abbrev S256x256 : Shape := ⟨2, ![256, 256]⟩
abbrev S256 : Shape := ⟨1, ![256]⟩
abbrev S_ : Shape := ⟨0, ![]⟩

class Facts : Prop where
  bcast_S_S32x4x1024x256 : S_.BroadcastsInDim S32x4x1024x256 (![] : Fin 0 → Fin S32x4x1024x256.rank)
  reducesTo_S32x4x1024x256_S_d0_1_2_3 : S32x4x1024x256.ReducesTo [0, 1, 2, 3] S_
  h_S_ : 0 < S_.numel
  bcast_S_S256x513 : S_.BroadcastsInDim S256x513 (![] : Fin 0 → Fin S256x513.rank)
  reducesTo_S256x513_S_d0_1 : S256x513.ReducesTo [0, 1] S_
  bcast_S_S513 : S_.BroadcastsInDim S513 (![] : Fin 0 → Fin S513.rank)
  reducesTo_S513_S_d0 : S513.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x4x1024x256 .f32) (main_arg1 : FVec F S256x513 .f32) (main_arg2 : FVec F S513 .f32) (main_arg3 : FVec F S256x256 .f32) (main_arg4 : FVec F S256 .f32) : IVec S_ 1 :=
  let main_v0 : FVec F S32x4x1024x256 .f32 := Host.absf main_arg0
  let main_cst : FVec F S_ .f32 := constant S_ .f32 0x7F800000#32
  let main_v1 : FVec F S32x4x1024x256 .f32 := broadcastInDim S32x4x1024x256 ![] bcast_S_S32x4x1024x256 main_cst
  let main_v2 : IVec S32x4x1024x256 1 := cmpf .olt main_v0 main_v1
  let main_c : IVec S_ 1 := constantI S_ 1 1#1
  let main_v3 : IVec S_ 1 := (fun x v => Host.reduce IntOp.andi x v reducesTo_S32x4x1024x256_S_d0_1_2_3 h_S_) main_v2 main_c
  let main_v4 : FVec F S256x513 .f32 := Host.absf main_arg1
  let main_cst_0 : FVec F S_ .f32 := constant S_ .f32 0x7F800000#32
  let main_v5 : FVec F S256x513 .f32 := broadcastInDim S256x513 ![] bcast_S_S256x513 main_cst_0
  let main_v6 : IVec S256x513 1 := cmpf .olt main_v4 main_v5
  let main_c_1 : IVec S_ 1 := constantI S_ 1 1#1
  let main_v7 : IVec S_ 1 := (fun x v => Host.reduce IntOp.andi x v reducesTo_S256x513_S_d0_1 h_S_) main_v6 main_c_1
  let main_v8 : IVec S_ 1 := andi main_v3 main_v7
  let main_v9 : FVec F S513 .f32 := Host.absf main_arg2
  let main_cst_2 : FVec F S_ .f32 := constant S_ .f32 0x7F800000#32
  let main_v10 : FVec F S513 .f32 := broadcastInDim S513 ![] bcast_S_S513 main_cst_2
  let main_v11 : IVec S513 1 := cmpf .olt main_v9 main_v10
  let main_c_3 : IVec S_ 1 := constantI S_ 1 1#1
  let main_v12 : IVec S_ 1 := (fun x v => Host.reduce IntOp.andi x v reducesTo_S513_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32x4x1024x256 : Shape := ⟨4, ![32, 4, 1024, 256]⟩
abbrev S256x513 : Shape := ⟨2, ![256, 513]⟩
abbrev S513 : Shape := ⟨1, ![513]⟩
abbrev S256x256 : Shape := ⟨2, ![256, 256]⟩
abbrev S256 : Shape := ⟨1, ![256]⟩
abbrev S128x1024x256 : Shape := ⟨3, ![128, 1024, 256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 19
  | .vmem => 12
  | .smem => 0
  | _ => 0

abbrev bufTy : (tb : Table) → Fin (tcTables nBuf tb) → BufTy
  | .hbm, ⟨0, _⟩ => ⟨S32x4x1024x256, .f32⟩
  | .hbm, ⟨1, _⟩ => ⟨S256x513, .f32⟩
  | .hbm, ⟨2, _⟩ => ⟨S513, .f32⟩
  | .hbm, ⟨3, _⟩ => ⟨S256x256, .f32⟩
  | .hbm, ⟨4, _⟩ => ⟨S256, .f32⟩
  | .hbm, ⟨5, _⟩ => ⟨S128x1024x256, .f32⟩
  | .hbm, ⟨6, _⟩ => ⟨S256x1, .f32⟩
  | .hbm, ⟨7, _⟩ => ⟨S1x256, .f32⟩
  | .hbm, ⟨8, _⟩ => ⟨S256x256, .f32⟩
  | .hbm, ⟨9, _⟩ => ⟨S256x256, .f32⟩
  | .hbm, ⟨10, _⟩ => ⟨S1, .f32⟩
  | .hbm, ⟨11, _⟩ => ⟨S1x1, .f32⟩
  | .hbm, ⟨12, _⟩ => ⟨S256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S1x256, .f32⟩
  | .hbm, ⟨17, _⟩ => ⟨S128x1024x256, .f32⟩
  | .hbm, ⟨18, _⟩ => ⟨S32x4x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256, .f32⟩
  | .local _ .vmem, ⟨3, _⟩ => ⟨S1x1, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x1024x256, .f32⟩
  | .local _ .vmem, ⟨11, _⟩ => ⟨S1x1024x256, .f32⟩
  | _, _ => ⟨S32x4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x4x1024x256_S128x1024x256 : S32x4x1024x256.ShapeCasts S128x1024x256
  slices_S256x513_S256x1_0_0 : S256x513.Slices ![0, 0] S256x1
  transposes_S256x1_S1x256_1_0 : S256x1.Transposes [1, 0] S1x256
  slices_S256x513_S256x256_0_1 : S256x513.Slices ![0, 1] S256x256
  slices_S256x513_S256x256_0_257 : S256x513.Slices ![0, 257] S256x256
  slices_S513_S1_0 : S513.Slices ![0] S1
  shapeCasts_S1_S1x1 : S1.ShapeCasts S1x1
  slices_S513_S256_1 : S513.Slices ![1] S256
  shapeCasts_S256_S1x256 : S256.ShapeCasts S1x256
  slices_S513_S256_257 : S513.Slices ![257] S256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S1024x256 : S1x256.Broadcasts S1024x256
  reduces_S1024x256_S1024 : S1024x256.Reduces [1] S1024
  shapeCasts_S1024_S1024x1 : S1024.ShapeCasts S1024x1
  broadcasts_S1x1_S1024x1 : S1x1.Broadcasts S1024x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1024x1_S1 : S1024x1.Reduces [0] S1
  broadcasts_S1024x1_S1024x256 : S1024x1.Broadcasts S1024x256
  reduces_S1024x256_S256 : S1024x256.Reduces [0] S256
  shapeCasts_S1024x256_S1x1024x256 : S1024x256.ShapeCasts S1x1024x256
  shapeCasts_S128x1024x256_S32x4x1024x256 : S128x1024x256.ShapeCasts S32x4x1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S128x1024x256.size a
  hwx0_0 : ∀ i : grid0.Coords, EltTy.bits .f32 = 32 ∨ (Rect.block (s := S128x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S128x1024x256.size a
  hwx0_9 : ∀ i : grid0.Coords, EltTy.bits .f32 = 32 ∨ (Rect.block (s := S128x1024x256) S1x1024x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x4x1024x256 : Shape := ⟨4, ![32, 4, 1024, 256]⟩
abbrev S256x513 : Shape := ⟨2, ![256, 513]⟩
abbrev S513 : Shape := ⟨1, ![513]⟩
abbrev S256x256 : Shape := ⟨2, ![256, 256]⟩
abbrev S256 : Shape := ⟨1, ![256]⟩
abbrev S32x4x1024x513 : Shape := ⟨4, ![32, 4, 1024, 513]⟩
abbrev S1x1x1x513 : Shape := ⟨4, ![1, 1, 1, 513]⟩
abbrev S32x4x1024x1 : Shape := ⟨4, ![32, 4, 1024, 1]⟩
abbrev S_ : Shape := ⟨0, ![]⟩
abbrev S32x4x1 : Shape := ⟨3, ![32, 4, 1]⟩
abbrev S32x4x1x1 : Shape := ⟨4, ![32, 4, 1, 1]⟩
abbrev S32x4x256 : Shape := ⟨3, ![32, 4, 256]⟩
abbrev S32x4x1x256 : Shape := ⟨4, ![32, 4, 1, 256]⟩
abbrev S1x1x1x256 : Shape := ⟨4, ![1, 1, 1, 256]⟩

abbrev nBuf : Space → Nat
  | .hbm => 40
  | .vmem => 0
  | .smem => 0
  | _ => 0

abbrev bufTy : (tb : Table) → Fin (tcTables nBuf tb) → BufTy
  | .hbm, ⟨0, _⟩ => ⟨S32x4x1024x256, .f32⟩
  | .hbm, ⟨1, _⟩ => ⟨S256x513, .f32⟩
  | .hbm, ⟨2, _⟩ => ⟨S513, .f32⟩
  | .hbm, ⟨3, _⟩ => ⟨S256x256, .f32⟩
  | .hbm, ⟨4, _⟩ => ⟨S256, .f32⟩
  | .hbm, ⟨5, _⟩ => ⟨S32x4x1024x513, .f32⟩
  | .hbm, ⟨6, _⟩ => ⟨S1x1x1x513, .f32⟩
  | .hbm, ⟨7, _⟩ => ⟨S32x4x1024x513, .f32⟩
  | .hbm, ⟨8, _⟩ => ⟨S32x4x1024x513, .f32⟩
  | .hbm, ⟨9, _⟩ => ⟨S32x4x1024x1, .f32⟩
  | .hbm, ⟨10, _⟩ => ⟨S32x4x1024x256, .f32⟩
  | .hbm, ⟨11, _⟩ => ⟨S32x4x1024x256, .f32⟩
  | .hbm, ⟨12, _⟩ => ⟨S_, .f32⟩
  | .hbm, ⟨13, _⟩ => ⟨S32x4x1024x256, .f32⟩
  | .hbm, ⟨14, _⟩ => ⟨S32x4x1024x256, .f32⟩
  | .hbm, ⟨15, _⟩ => ⟨S_, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S32x4x1x1, .f32⟩
  | .hbm, ⟨21, _⟩ => ⟨S32x4x1024x1, .f32⟩
  | .hbm, ⟨22, _⟩ => ⟨S32x4x1024x1, .f32⟩
  | .hbm, ⟨23, _⟩ => ⟨S32x4x1024x1, .f32⟩
  | .hbm, ⟨24, _⟩ => ⟨S_, .f32⟩
  | .hbm, ⟨25, _⟩ => ⟨S32x4x1, .f32⟩
  | .hbm, ⟨26, _⟩ => ⟨S32x4x1x1, .f32⟩
  | .hbm, ⟨27, _⟩ => ⟨S32x4x1024x1, .f32⟩
  | .hbm, ⟨28, _⟩ => ⟨S32x4x1024x1, .f32⟩
  | .hbm, ⟨29, _⟩ => ⟨S32x4x1024x256, .f32⟩
  | .hbm, ⟨30, _⟩ => ⟨S32x4x1024x256, .f32⟩
  | .hbm, ⟨31, _⟩ => ⟨S_, .f32⟩
  | .hbm, ⟨32, _⟩ => ⟨S32x4x256, .f32⟩
  | .hbm, ⟨33, _⟩ => ⟨S32x4x1x256, .f32⟩
  | .hbm, ⟨34, _⟩ => ⟨S32x4x1024x256, .f32⟩
  | .hbm, ⟨35, _⟩ => ⟨S32x4x1024x256, .f32⟩
  | .hbm, ⟨36, _⟩ => ⟨S32x4x1024x256, .f32⟩
  | .hbm, ⟨37, _⟩ => ⟨S1x1x1x256, .f32⟩
  | .hbm, ⟨38, _⟩ => ⟨S32x4x1024x256, .f32⟩
  | .hbm, ⟨39, _⟩ => ⟨S32x4x1024x256, .f32⟩
  | _, _ => ⟨S32x4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S513_S1x1x1x513_3 : S513.BroadcastsInDim S1x1x1x513 (![3] : Fin 1 → Fin S1x1x1x513.rank)
  bcast_S1x1x1x513_S32x4x1024x513_0_1_2_3 : S1x1x1x513.BroadcastsInDim S32x4x1024x513 (![0, 1, 2, 3] : Fin 4 → Fin S32x4x1024x513.rank)
  slices_S32x4x1024x513_S32x4x1024x1_0_0_0_0 : S32x4x1024x513.Slices ![0, 0, 0, 0] S32x4x1024x1
  slices_S32x4x1024x513_S32x4x1024x256_0_0_0_1 : S32x4x1024x513.Slices ![0, 0, 0, 1] S32x4x1024x256
  slices_S32x4x1024x513_S32x4x1024x256_0_0_0_257 : S32x4x1024x513.Slices ![0, 0, 0, 257] S32x4x1024x256
  bcast_S_S32x4x1024x256 : S_.BroadcastsInDim S32x4x1024x256 (![] : Fin 0 → Fin S32x4x1024x256.rank)
  reducesTo_S32x4x1024x1_S32x4x1_d2 : S32x4x1024x1.ReducesTo [2] S32x4x1
  h_S_ : 0 < S_.numel
  bcast_S_S32x4x1 : S_.BroadcastsInDim S32x4x1 (![] : Fin 0 → Fin S32x4x1.rank)
  bcast_S32x4x1_S32x4x1x1_0_1_3 : S32x4x1.BroadcastsInDim S32x4x1x1 (![0, 1, 3] : Fin 3 → Fin S32x4x1x1.rank)
  bcast_S32x4x1x1_S32x4x1024x1_0_1_2_3 : S32x4x1x1.BroadcastsInDim S32x4x1024x1 (![0, 1, 2, 3] : Fin 4 → Fin S32x4x1024x1.rank)
  bcast_S32x4x1024x1_S32x4x1024x256_0_1_2_3 : S32x4x1024x1.BroadcastsInDim S32x4x1024x256 (![0, 1, 2, 3] : Fin 4 → Fin S32x4x1024x256.rank)
  reducesTo_S32x4x1024x256_S32x4x256_d2 : S32x4x1024x256.ReducesTo [2] S32x4x256
  bcast_S32x4x256_S32x4x1x256_0_1_3 : S32x4x256.BroadcastsInDim S32x4x1x256 (![0, 1, 3] : Fin 3 → Fin S32x4x1x256.rank)
  bcast_S32x4x1x256_S32x4x1024x256_0_1_2_3 : S32x4x1x256.BroadcastsInDim S32x4x1024x256 (![0, 1, 2, 3] : Fin 4 → Fin S32x4x1024x256.rank)
  bcast_S256_S1x1x1x256_3 : S256.BroadcastsInDim S1x1x1x256 (![3] : Fin 1 → Fin S1x1x1x256.rank)
  bcast_S1x1x1x256_S32x4x1024x256_0_1_2_3 : S1x1x1x256.BroadcastsInDim S32x4x1024x256 (![0, 1, 2, 3] : Fin 4 → Fin S32x4x1024x256.rank)
  dot_S32x4x1024x256_S256x513_S32x4x1024x513_3_0_012_1_n_n_wf : DotDims.WF S32x4x1024x256 S256x513 S32x4x1024x513 [3] [0] [0, 1, 2] [1] [] []
  dot_S32x4x1024x256_S256x256_S32x4x1024x256_3_0_012_1_n_n_wf : DotDims.WF S32x4x1024x256 S256x256 S32x4x1024x256 [3] [0] [0, 1, 2] [1] [] []

variable [Facts₀]

def dot_S32x4x1024x256_S256x513_S32x4x1024x513_3_0_012_1_n_n : DotDims S32x4x1024x256 S256x513 S32x4x1024x513 where
  lhsContracting := [3]
  rhsContracting := [0]
  lhsNonContracting := [0, 1, 2]
  rhsNonContracting := [1]
  lhsBatch := []
  rhsBatch := []
  wf := dot_S32x4x1024x256_S256x513_S32x4x1024x513_3_0_012_1_n_n_wf
def dot_S32x4x1024x256_S256x256_S32x4x1024x256_3_0_012_1_n_n : DotDims S32x4x1024x256 S256x256 S32x4x1024x256 where
  lhsContracting := [3]
  rhsContracting := [0]
  lhsNonContracting := [0, 1, 2]
  rhsNonContracting := [1]
  lhsBatch := []
  rhsBatch := []
  wf := dot_S32x4x1024x256_S256x256_S32x4x1024x256_3_0_012_1_n_n_wf

class Facts : Prop extends Facts₀ where

variable [Facts]
-- ==== Proof.Spec.lean ====
/-
  Linear self-attention over one slab of rows, on the extended reals, as ONE function of coordinates.
  For a slab `x` of `N` rows and `D` columns: the logit of row `n` is `Σ_d x(n,d)·wq(d) + bq`; the logits are turned into
  weights by a softmax down the rows (subtract the largest logit, exponentiate, divide by the sum of the exponentials);
  keys and values are the affine images `x·Wk + bk` and `max(x·Wv + bv, 0)`; the context is the weighted sum of the
  keys down the rows; every value row is scaled coordinatewise by the context and sent through `Wo`, plus `bo`.
  Both programs of this certificate compute exactly this, operation for operation; no algebraic law is needed to join
  them, only the reading of each program's arrangement of the same sums, folds and quotients at an index.
-/
import Idealize.ShloMosaic.PureOps.Ideal

noncomputable section

namespace Cert.Attn

open Idealize.ShloMosaic

/-- The f32 word of −∞: the seed of the running maximum. -/
abbrev negInf : EReal := Ideal.ofBits .f32 0xFF800000#32
/-- The f32 word of 0: the floor of the rectifier. -/
abbrev zeroW : EReal := Ideal.ofBits .f32 0x00000000#32

variable {N D E E' : ℕ}

/-- Rows times a weight column plus a scalar: the logit of row `n`. -/
def logit (x : Fin N → Fin D → EReal) (wq : Fin D → EReal) (bq : EReal) (n : Fin N) : EReal :=
  (∑ d : Fin D, x n d * wq d) + bq

/-- The largest logit, computed as both programs do: the fold of `max` from −∞ down the rows, then once more against −∞. -/
def top (q : Fin N → EReal) : EReal := max negInf ((Finset.univ : Finset (Fin N)).fold max negInf q)

/-- The shifted exponential of row `n`'s logit. -/
def expo (q : Fin N → EReal) (n : Fin N) : EReal := Ideal.exp (q n - top q)

/-- The softmax weight of row `n`: its shifted exponential over the sum of them all. -/
def weight (q : Fin N → EReal) (n : Fin N) : EReal := Ideal.div (expo q n) (∑ k : Fin N, expo q k)

/-- Rows times weights plus a bias row. -/
def affine (x : Fin N → Fin D → EReal) (w : Fin D → Fin E → EReal) (b : Fin E → EReal) (n : Fin N) (e : Fin E) : EReal :=
  (∑ d : Fin D, x n d * w d e) + b e

/-- The context: the keys summed down the rows with the softmax weights. -/
def context (k : Fin N → Fin E → EReal) (s : Fin N → EReal) (e : Fin E) : EReal := ∑ n : Fin N, k n e * s n

/-- The rectified values scaled by the context. -/
def scaled (v : Fin N → Fin E → EReal) (c : Fin E → EReal) (n : Fin N) (e : Fin E) : EReal := max (v n e) zeroW * c e

/-- The whole slab map at row `n`, output column `j`. -/
def attn (x : Fin N → Fin D → EReal) (wq : Fin D → EReal) (bq : EReal) (wk : Fin D → Fin E → EReal) (bk : Fin E → EReal)
    (wv : Fin D → Fin E → EReal) (bv : Fin E → EReal) (wo : Fin E → Fin E' → EReal) (bo : Fin E' → EReal)
    (n : Fin N) (j : Fin E') : EReal :=
  affine (scaled (affine x wv bv) (context (affine x wk bk) (weight (logit x wq bq)))) wo bo n j

end Cert.Attn

end
-- ==== Proof.RefValue.lean ====
/-
  The host reference read as one function of coordinates. Every stage of the reference program is read at explicit
  coordinates (batch b, patch p, row n, column e): the fused projection is a row of the slab times a column of the
  weights plus the bias; its three column ranges are the logit, the key and the value; the logits are shifted by
  their largest (the fold of max from −∞ down the rows, once more against −∞), exponentiated and divided by the sum
  of the exponentials; the keys are summed down the rows with those weights; the rectified values are scaled by that
  context, contracted with the output weights and the output bias is added. The chain of readings is the slab map
  attn of the specification, operation for operation.
-/
import proofs.«118115_j57346403336825_1_alg».proof.Proof.Gen.ReferenceIdeal.Read
import proofs.«118115_j57346403336825_1_alg».proof.Proof.Spec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (X : FVec Ideal S32x4x1024x256 .f32) (W : FVec Ideal S256x513 .f32) (B : FVec Ideal S513 .f32)
  (Wo : FVec Ideal S256x256 .f32) (Bo : FVec Ideal S256 .f32)

/-! ## The arguments of the slab map at batch b, patch p -/

/-- The slab of rows at batch b, patch p. -/
abbrev slab (b : Fin 32) (p : Fin 4) : Fin 1024 → Fin 256 → EReal := fun n d => X (ix4 b p n d)
/-- Column 0 of the fused weights and bias: the logit's. -/
abbrev wq : Fin 256 → EReal := fun d => W (ix2 d (0 : Fin 513))
abbrev bq : EReal := B (ix1 (0 : Fin 513))
/-- Columns 1 to 256: the keys'. -/
abbrev wk : Fin 256 → Fin 256 → EReal := fun d e => W (ix2 d (⟨e.val + 1, by have := e.isLt; omega⟩ : Fin 513))
abbrev bk : Fin 256 → EReal := fun e => B (ix1 (⟨e.val + 1, by have := e.isLt; omega⟩ : Fin 513))
/-- Columns 257 to 512: the values'. -/
abbrev wv : Fin 256 → Fin 256 → EReal := fun d e => W (ix2 d (⟨e.val + 257, by have := e.isLt; omega⟩ : Fin 513))
abbrev bv : Fin 256 → EReal := fun e => B (ix1 (⟨e.val + 257, by have := e.isLt; omega⟩ : Fin 513))
/-- The logits, the softmax weights and the context of the slab. -/
abbrev qs (b : Fin 32) (p : Fin 4) : Fin 1024 → EReal := Attn.logit (slab X b p) (wq W) (bq B)
abbrev ws (b : Fin 32) (p : Fin 4) : Fin 1024 → EReal := Attn.weight (qs X W B b p)
abbrev cs (b : Fin 32) (p : Fin 4) : Fin 256 → EReal := Attn.context (Attn.affine (slab X b p) (wk W) (bk B)) (ws X W B b p)

/-! ## The fused projection -/

theorem lidx0_eq (b : Fin 32) (p : Fin 4) (n : Fin 1024) (c : Fin 513) (k : Fin 256) :
    lidx_main_v0 (ix4 b p n c) k = ix4 b p n k :=
  funext fun a => by match a with | ⟨0, _⟩ => rfl | ⟨1, _⟩ => rfl | ⟨2, _⟩ => rfl | ⟨3, _⟩ => rfl

theorem ridx0_eq (b : Fin 32) (p : Fin 4) (n : Fin 1024) (c : Fin 513) (k : Fin 256) :
    ridx_main_v0 (ix4 b p n c) k = ix2 k c :=
  funext fun a => by match a with | ⟨0, _⟩ => rfl | ⟨1, _⟩ => rfl

theorem idx12_eq (b : Fin 32) (p : Fin 4) (n : Fin 1024) (c : Fin 513) :
    idx_main_v1 (idx_main_v2 (ix4 b p n c)) = ix1 c :=
  funext fun a => by match a with | ⟨0, _⟩ => rfl

/-- The fused projection at row n, column c: the row of the slab times column c of the weights, plus the bias. -/
theorem proj_apply (b : Fin 32) (p : Fin 4) (n : Fin 1024) (c : Fin 513) :
    val_main_v3 (F := Ideal) X W B (ix4 b p n c)
      = (∑ d : Fin 256, X (ix4 b p n d) * W (ix2 d c)) + B (ix1 c) := by
  rw [val_main_v3_apply, val_main_v0_apply, val_main_v2_apply, val_main_v1_apply, idx12_eq]
  show (∑ k : Fin 256, X (lidx_main_v0 (ix4 b p n c) k) * W (ridx_main_v0 (ix4 b p n c) k)) + B (ix1 c) = _
  refine congrArg (· + B (ix1 c)) (Finset.sum_congr rfl fun k _ => ?_)
  rw [lidx0_eq, ridx0_eq]

/-! ## The three column ranges of the projection -/

theorem idx4_eq (b : Fin 32) (p : Fin 4) (n : Fin 1024) :
    idx_main_v4 (ix4 b p n (0 : Fin 1)) = ix4 b p n (0 : Fin 513) :=
  funext fun a => by match a with | ⟨0, _⟩ => rfl | ⟨1, _⟩ => rfl | ⟨2, _⟩ => rfl | ⟨3, _⟩ => rfl

theorem idx5_eq (b : Fin 32) (p : Fin 4) (n : Fin 1024) (e : Fin 256) :
    idx_main_v5 (ix4 b p n e) = ix4 b p n (⟨e.val + 1, by have := e.isLt; omega⟩ : Fin 513) :=
  funext fun a => by
    match a with
    | ⟨0, _⟩ => rfl
    | ⟨1, _⟩ => rfl
    | ⟨2, _⟩ => rfl
    | ⟨3, _⟩ => exact Fin.ext (Nat.add_comm 1 e.val)

theorem idx6_eq (b : Fin 32) (p : Fin 4) (n : Fin 1024) (e : Fin 256) :
    idx_main_v6 (ix4 b p n e) = ix4 b p n (⟨e.val + 257, by have := e.isLt; omega⟩ : Fin 513) :=
  funext fun a => by
    match a with
    | ⟨0, _⟩ => rfl
    | ⟨1, _⟩ => rfl
    | ⟨2, _⟩ => rfl
    | ⟨3, _⟩ => exact Fin.ext (Nat.add_comm 257 e.val)

/-- Column 0 of the projection: the logit of row n. -/
theorem logit_apply (b : Fin 32) (p : Fin 4) (n : Fin 1024) :
    val_main_v4 (F := Ideal) X W B (ix4 b p n (0 : Fin 1)) = qs X W B b p n := by
  rw [val_main_v4_apply, idx4_eq, proj_apply]
  rfl

/-- Columns 1 to 256 of the projection: the key of row n. -/
theorem key_apply (b : Fin 32) (p : Fin 4) (n : Fin 1024) (e : Fin 256) :
    val_main_v5 (F := Ideal) X W B (ix4 b p n e) = Attn.affine (slab X b p) (wk W) (bk B) n e := by
  rw [val_main_v5_apply, idx5_eq, proj_apply]
  rfl

/-- Columns 257 to 512 of the projection: the value of row n before the rectifier. -/
theorem value_apply (b : Fin 32) (p : Fin 4) (n : Fin 1024) (e : Fin 256) :
    val_main_v6 (F := Ideal) X W B (ix4 b p n e) = Attn.affine (slab X b p) (wv W) (bv B) n e := by
  rw [val_main_v6_apply, idx6_eq, proj_apply]
  rfl

/-- The rectifier: the maximum with the zero word. -/
theorem relu_apply (b : Fin 32) (p : Fin 4) (n : Fin 1024) (e : Fin 256) :
    val_main_v7 (F := Ideal) X W B (ix4 b p n e)
      = max (val_main_v6 (F := Ideal) X W B (ix4 b p n e)) Attn.zeroW := by
  rw [val_main_v7_apply, val_main_call0_v0_apply, val_main_call0_cst_apply]
  rfl

/-! ## The largest logit -/

/-- Entry (b, p, 0) of the reduced array with the row coordinate k put back is (b, p, k, 0). -/
theorem lift_rows (h : S32x4x1024x1.Reduces [2] S32x4x1) (b : Fin 32) (p : Fin 4) (k : Fin (S32x4x1024x1.size 2)) :
    h.lift (ix3 b p (0 : Fin 1)) k = ix4 b p (⟨k.val, k.isLt⟩ : Fin 1024) (0 : Fin 1) := by
  funext d; apply Fin.ext
  fin_cases d <;> rfl

/-- The maximum reduction down the rows: the fold of max from −∞ over the logits. -/
theorem rowmax_apply (b : Fin 32) (p : Fin 4) :
    val_main_v8 (F := Ideal) X W B (ix3 b p (0 : Fin 1))
      = (Finset.univ : Finset (Fin 1024)).fold max Attn.negInf
          (fun k => val_main_v4 (F := Ideal) X W B (ix4 b p k (0 : Fin 1))) := by
  unfold val_main_v8
  have h : S32x4x1024x1.Reduces [2] S32x4x1 := by decide
  rw [Host.reduce_eq_fold_single FloatOps.maximumf _ _ Gen.reducesTo_S32x4x1024x1_S32x4x1_d2 h Gen.h_S_]
  exact congrArg (fun f => Finset.fold max Attn.negInf f (Finset.univ : Finset (Fin 1024)))
    (funext fun k => congrArg (val_main_v4 (F := Ideal) X W B) (lift_rows h b p k))

/-- The largest logit as the program has it: the reduction once more against the broadcast −∞ word. -/
theorem top_apply (b : Fin 32) (p : Fin 4) :
    val_main_v10 (F := Ideal) X W B (ix3 b p (0 : Fin 1)) = Attn.top (qs X W B b p) := by
  rw [val_main_v10_apply, val_main_v9_apply, val_main_cst_0_apply, rowmax_apply]
  have e : (fun k => val_main_v4 (F := Ideal) X W B (ix4 b p k (0 : Fin 1))) = qs X W B b p :=
    funext fun k => logit_apply X W B b p k
  rw [e]
  rfl

/-! ## The softmax weights -/

theorem idx1112_eq (b : Fin 32) (p : Fin 4) (n : Fin 1024) :
    idx_main_v11 (idx_main_v12 (ix4 b p n (0 : Fin 1))) = ix3 b p (0 : Fin 1) :=
  funext fun a => by match a with | ⟨0, _⟩ => rfl | ⟨1, _⟩ => rfl | ⟨2, _⟩ => rfl

/-- The shifted exponential of row n's logit. -/
theorem expo_apply (b : Fin 32) (p : Fin 4) (n : Fin 1024) :
    val_main_v14 (F := Ideal) X W B (ix4 b p n (0 : Fin 1)) = Attn.expo (qs X W B b p) n := by
  rw [val_main_v14_apply, val_main_v13_apply, val_main_v12_apply, val_main_v11_apply, idx1112_eq, top_apply,
    logit_apply]
  rfl

theorem idx15_eq (b : Fin 32) (p : Fin 4) (k : Fin 1024) :
    idx_main_v15 (ix3 b p (0 : Fin 1)) k = ix4 b p k (0 : Fin 1) :=
  funext fun a => by match a with | ⟨0, _⟩ => rfl | ⟨1, _⟩ => rfl | ⟨2, _⟩ => rfl | ⟨3, _⟩ => rfl

/-- The sum of the exponentials down the rows (the zero word it starts from adds nothing). -/
theorem denom_apply (b : Fin 32) (p : Fin 4) :
    val_main_v15 (F := Ideal) X W B (ix3 b p (0 : Fin 1)) = ∑ k : Fin 1024, Attn.expo (qs X W B b p) k := by
  rw [val_main_v15_apply, val_main_cst_1_apply]
  show Ideal.ofBits .f32 0x00000000#32 + _ = _
  rw [Ideal.ofBits_zero_f32, zero_add]
  refine Finset.sum_congr rfl fun k _ => ?_
  rw [idx15_eq, expo_apply]

theorem idx1617_eq (b : Fin 32) (p : Fin 4) (n : Fin 1024) :
    idx_main_v16 (idx_main_v17 (ix4 b p n (0 : Fin 1))) = ix3 b p (0 : Fin 1) :=
  funext fun a => by match a with | ⟨0, _⟩ => rfl | ⟨1, _⟩ => rfl | ⟨2, _⟩ => rfl

/-- The softmax weight of row n: its exponential over the sum. -/
theorem weight_apply (b : Fin 32) (p : Fin 4) (n : Fin 1024) :
    val_main_v18 (F := Ideal) X W B (ix4 b p n (0 : Fin 1)) = ws X W B b p n := by
  rw [val_main_v18_apply, val_main_v17_apply, val_main_v16_apply, idx1617_eq, denom_apply, expo_apply]
  rfl

/-! ## The context -/

theorem idx19_eq (b : Fin 32) (p : Fin 4) (n : Fin 1024) (e : Fin 256) :
    idx_main_v19 (ix4 b p n e) = ix4 b p n (0 : Fin 1) :=
  funext fun a => by match a with | ⟨0, _⟩ => rfl | ⟨1, _⟩ => rfl | ⟨2, _⟩ => rfl | ⟨3, _⟩ => rfl

theorem idx21_eq (b : Fin 32) (p : Fin 4) (e : Fin 256) (k : Fin 1024) :
    idx_main_v21 (ix3 b p e) k = ix4 b p k e :=
  funext fun a => by match a with | ⟨0, _⟩ => rfl | ⟨1, _⟩ => rfl | ⟨2, _⟩ => rfl | ⟨3, _⟩ => rfl

/-- The keys summed down the rows with the softmax weights (the zero word the sum starts from adds nothing). -/
theorem context_apply (b : Fin 32) (p : Fin 4) (e : Fin 256) :
    val_main_v21 (F := Ideal) X W B (ix3 b p e) = cs X W B b p e := by
  rw [val_main_v21_apply, val_main_cst_2_apply]
  show Ideal.ofBits .f32 0x00000000#32 + _ = _
  rw [Ideal.ofBits_zero_f32, zero_add]
  refine Finset.sum_congr rfl fun k _ => ?_
  rw [idx21_eq, val_main_v20_apply, val_main_v19_apply, idx19_eq, weight_apply, key_apply]
  rfl

/-! ## The scaled values, the output projection -/

theorem idx2223_eq (b : Fin 32) (p : Fin 4) (n : Fin 1024) (e : Fin 256) :
    idx_main_v22 (idx_main_v23 (ix4 b p n e)) = ix3 b p e :=
  funext fun a => by match a with | ⟨0, _⟩ => rfl | ⟨1, _⟩ => rfl | ⟨2, _⟩ => rfl

/-- The rectified value of row n scaled by the context. -/
theorem scaled_apply (b : Fin 32) (p : Fin 4) (n : Fin 1024) (e : Fin 256) :
    val_main_v24 (F := Ideal) X W B (ix4 b p n e)
      = Attn.scaled (Attn.affine (slab X b p) (wv W) (bv B)) (cs X W B b p) n e := by
  rw [val_main_v24_apply, relu_apply, value_apply, val_main_v23_apply, val_main_v22_apply, idx2223_eq, context_apply]
  rfl

theorem lidx25_eq (b : Fin 32) (p : Fin 4) (n : Fin 1024) (j : Fin 256) (k : Fin 256) :
    lidx_main_v25 (ix4 b p n j) k = ix4 b p n k :=
  funext fun a => by match a with | ⟨0, _⟩ => rfl | ⟨1, _⟩ => rfl | ⟨2, _⟩ => rfl | ⟨3, _⟩ => rfl

theorem ridx25_eq (b : Fin 32) (p : Fin 4) (n : Fin 1024) (j : Fin 256) (k : Fin 256) :
    ridx_main_v25 (ix4 b p n j) k = ix2 k j :=
  funext fun a => by match a with | ⟨0, _⟩ => rfl | ⟨1, _⟩ => rfl

theorem idx2627_eq (b : Fin 32) (p : Fin 4) (n : Fin 1024) (j : Fin 256) :
    idx_main_v26 (idx_main_v27 (ix4 b p n j)) = ix1 j :=
  funext fun a => by match a with | ⟨0, _⟩ => rfl

/-- THE REFERENCE AT (b, p, n, j): the slab map of the specification, at the slab of batch b, patch p, with the three
    column ranges of the fused weights and bias as the logit's, the keys' and the values'. -/
theorem result_apply (b : Fin 32) (p : Fin 4) (n : Fin 1024) (j : Fin 256) :
    Cert.ReferenceIdeal.Read.val_main_v28 (F := Ideal) X W B Wo Bo (ix4 b p n j)
      = Cert.Attn.attn (fun n d => X (ix4 b p n d)) (fun d => W (ix2 d (0 : Fin 513))) (B (ix1 (0 : Fin 513)))
          (fun d e => W (ix2 d ⟨e.val + 1, by have := e.isLt; omega⟩)) (fun e => B (ix1 ⟨e.val + 1, by have := e.isLt; omega⟩))
          (fun d e => W (ix2 d ⟨e.val + 257, by have := e.isLt; omega⟩)) (fun e => B (ix1 ⟨e.val + 257, by have := e.isLt; omega⟩))
          (fun d e => Wo (ix2 d e)) (fun e => Bo (ix1 e)) n j := by
  rw [val_main_v28_apply, val_main_v25_apply, val_main_v27_apply, val_main_v26_apply, idx2627_eq]
  refine Eq.trans ?_ (show (∑ e : Fin 256,
      Attn.scaled (Attn.affine (slab X b p) (wv W) (bv B)) (cs X W B b p) n e * Wo (ix2 e j)) + Bo (ix1 j) = _ from rfl)
  show (∑ k : Fin 256, val_main_v24 (F := Ideal) X W B (lidx_main_v25 (ix4 b p n j) k) * Wo (ridx_main_v25 (ix4 b p n j) k))
      + Bo (ix1 j) = _
  refine congrArg (· + Bo (ix1 j)) (Finset.sum_congr rfl fun k _ => ?_)
  rw [lidx25_eq, ridx25_eq, scaled_apply]

end Cert.ReferenceIdeal.RefValue

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«118115_j57346403336825_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«118115_j57346403336825_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.KernelBody.lean ====
/-
  The kernel body at an index. One grid point holds a slab `x` of 1024 rows and 256 columns (its block, with a leading unit
  axis), the logit weights as one row, the logit bias as one entry, the key, value and output weights and their bias rows.
  What the body stores is, at row `n` and column `j`, the slab map of the specification: the logits by a product with the
  repeated weight row and a sum along each row; their softmax down the rows kept as a column; keys and values by products of
  the matrix unit into a zero accumulator plus a repeated bias row (the rounding of the operands to bf16 is the identity on
  the extended reals); the context by a sum down the rows; the scaled values through the output weights.
-/
import proofs.«118115_j57346403336825_1_alg».proof.Proof.Gen.KernelIdeal.Frame
import proofs.«118115_j57346403336825_1_alg».proof.Proof.Spec
import proofs.«118115_j57346403336825_1_alg».proof.Proof.LibAffine
import proofs.«118115_j57346403336825_1_alg».proof.Proof.LibColumn
import proofs.«118115_j57346403336825_1_alg».proof.Proof.LibRowColumn
import proofs.«118115_j57346403336825_1_alg».proof.Proof.LibRowReduce
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Attn

/-- The only index of a unit axis. -/
theorem fin1_eq (u : Fin 1) : u = 0 := Fin.ext (by omega)

/-! ## The logits -/

/-- A slab times the repeated weight row, summed along each row, plus the repeated bias entry: the logit of row `n`. -/
theorem logit_apply (x : FVec Ideal S1024x256 .f32) (w : FVec Ideal S1x256 .f32) (b : FVec Ideal S1x1 .f32)
    (hb1 : S1x256.Broadcasts S1024x256) (hr : S1024x256.Reduces [1] S1024) (hφ : FKind.Formats FTy.f32)
    (hacc : (0x00000000#32 : BitVec FTy.f32.bits) = FKind.add.neutral .f32 hφ) (hc : S1024.ShapeCasts S1024x1)
    (hb2 : S1x1.Broadcasts S1024x1) (n : Fin 1024) (u : Fin 1) :
    addf (shapeCast S1024x1 (multiReduction .add [1] S1024 (mulf x (broadcastTo S1024x256 w hb1)) 0x00000000#32 hr hφ hacc) hc)
        (broadcastTo S1024x1 b hb2) (ix2 n u)
      = logit (fun n d => x (ix2 n d)) (fun d => w (ix2 (0 : Fin 1) d)) (b (ix2 (0 : Fin 1) (0 : Fin 1))) n := by
  rw [addf_apply, Column.shapeCast_a_a1_apply, RowReduce.multiReduction_add_cols, broadcastTo_1b_ab_apply, fin1_eq u]
  unfold logit
  refine congrArg (· + b (ix2 (0 : Fin 1) (0 : Fin 1))) (Finset.sum_congr rfl fun d _ => ?_)
  rw [mulf_apply, broadcastTo_1b_ab_apply]

/-! ## The softmax numerators -/

/-- The logits' column minus its largest entry (a fold of `max` from −∞ down the rows, met once more with −∞), exponentiated. -/
theorem expo_apply (q : FVec Ideal S1024x1 .f32) (hr : S1024x1.Reduces [0] S1) (hφ : FKind.Formats FTy.f32)
    (hacc : (0xFF800000#32 : BitVec FTy.f32.bits) = FKind.maximumf.neutral .f32 hφ) (hc : S1.ShapeCasts S1x1)
    (hb : S1x1.Broadcasts S1024x1) (n : Fin 1024) (u : Fin 1) :
    exp (subf q (broadcastTo S1024x1 (shapeCast S1x1 (maximumf (broadcast S1 (Scalar.ofBits (F := Ideal) .f32 0xFF800000#32))
        (multiReduction .maximumf [0] S1 q 0xFF800000#32 hr hφ hacc)) hc) hb)) (ix2 n u)
      = expo (fun n => q (ix2 n (0 : Fin 1))) n := by
  show Ideal.exp (subf q _ (ix2 n u)) = _
  rw [subf_apply, broadcastTo_1b_ab_apply, shapeCast_a_1a_apply, maximumf_apply, RowColumn.multiReduction_maximumf_rows,
    fin1_eq u]
  rfl

/-! ## The slab without its unit axis -/

/-- The block `[1, 1024, 256]` cast to the matrix `[1024, 256]`: entry `(n, d)` is the block's `(0, n, d)`. -/
theorem pay2_apply (x0 : Vec Ideal S1x1024x256 .f32) (n : Fin 1024) (d : Fin 256) :
    k0_pay2 x0 (ix2 n d) = x0 (ix3 (0 : Fin 1) n d) := by
  unfold k0_pay2
  exact RowReduce.shapeCast_1ab_ab_apply x0 _ n d

/-- The softmax numerator of row `n`, from the loaded blocks. -/
theorem pay6_apply (x0 : Vec Ideal S1x1024x256 .f32) (x1 : Vec Ideal S1x256 .f32) (x2 : Vec Ideal S1x1 .f32) (n : Fin 1024) (u : Fin 1) :
    k0_pay6 x0 x1 x2 (ix2 n u)
      = expo (logit (fun n d => x0 (ix3 (0 : Fin 1) n d)) (fun d => x1 (ix2 (0 : Fin 1) d)) (x2 (ix2 (0 : Fin 1) (0 : Fin 1)))) n := by
  unfold k0_pay6
  refine (expo_apply _ _ _ _ _ _ n u).trans ?_
  refine congrArg (fun q => expo q n) (funext fun n' => ?_)
  refine (logit_apply _ _ _ _ _ _ _ _ _ n' (0 : Fin 1)).trans ?_
  rw [shapeCast_self, shapeCast_self]
  exact congrArg (fun X => logit X (fun d => x1 (ix2 (0 : Fin 1) d)) (x2 (ix2 (0 : Fin 1) (0 : Fin 1))) n')
    (funext fun a => funext fun d => pay2_apply x0 a d)

/-! ## Keys and values -/

/-- Rows of the slab times a weight matrix plus the repeated bias row, as the matrix unit computes it into a zero accumulator. -/
theorem rows_apply (x0 : Vec Ideal S1x1024x256 .f32) (w : Vec Ideal S256x256 .f32) (b : Vec Ideal S1x256 .f32)
    (hw : S256x256.ShapeCasts S256x256) (hb : S1x256.ShapeCasts S1x256) (ht : FTy.bf16.bits < FTy.f32.bits)
    (hbc : S1x256.Broadcasts S1024x256) (n : Fin 1024) (e : Fin 256) :
    addf (matmul dot_S1024x256_S256x256_S1024x256_1_0_0_1_n_n none (k0_pay3 x0) (truncf .bf16 (shapeCast S256x256 w hw) ht)
        (constant S1024x256 .f32 0x00000000#32)) (broadcastTo S1024x256 (shapeCast S1x256 b hb) hbc) (ix2 n e)
      = Attn.affine (fun n d => x0 (ix3 (0 : Fin 1) n d)) (fun d e => w (ix2 d e)) (fun e => b (ix2 (0 : Fin 1) e)) n e := by
  unfold k0_pay3
  refine (Affine.body_apply none (k0_pay2 x0) (truncf .bf16 (shapeCast S256x256 w hw) ht) (shapeCast S1x256 b hb) _ hbc n e).trans ?_
  rw [Affine.affine_ix2, shapeCast_self, shapeCast_self]
  unfold Attn.affine
  refine congrArg (· + b (ix2 (0 : Fin 1) e)) (Finset.sum_congr rfl fun d _ => ?_)
  rw [pay2_apply, truncf_apply]

/-- The keys. -/
theorem pay4_apply (x0 : Vec Ideal S1x1024x256 .f32) (x3 : Vec Ideal S256x256 .f32) (x4 : Vec Ideal S1x256 .f32) (n : Fin 1024) (e : Fin 256) :
    k0_pay4 x0 x3 x4 (ix2 n e)
      = Attn.affine (fun n d => x0 (ix3 (0 : Fin 1) n d)) (fun d e => x3 (ix2 d e)) (fun e => x4 (ix2 (0 : Fin 1) e)) n e := by
  unfold k0_pay4
  exact rows_apply x0 x3 x4 _ _ _ _ n e

/-- The values, rectified. -/
theorem pay5_apply (x0 : Vec Ideal S1x1024x256 .f32) (x5 : Vec Ideal S256x256 .f32) (x6 : Vec Ideal S1x256 .f32) (n : Fin 1024) (e : Fin 256) :
    k0_pay5 x0 x5 x6 (ix2 n e)
      = max (Attn.affine (fun n d => x0 (ix3 (0 : Fin 1) n d)) (fun d e => x5 (ix2 d e)) (fun e => x6 (ix2 (0 : Fin 1) e)) n e) zeroW := by
  unfold k0_pay5
  rw [maximumf_apply, rows_apply x0 x5 x6 _ _ _ _ n e]
  rfl

/-! ## The output rows -/

/-- The context row, repeated down the rows, at `(n, e)`: the numerators' column `ex` over its sum down the rows gives the
    weights; the keys times the repeated weights' column, summed down the rows, give entry `e`. -/
theorem context_apply (K : FVec Ideal S1024x256 .f32) (ex : FVec Ideal S1024x1 .f32)
    (hr1 : S1024x1.Reduces [0] S1) (hφ : FKind.Formats FTy.f32)
    (hacc : (0x00000000#32 : BitVec FTy.f32.bits) = FKind.add.neutral .f32 hφ) (hc1 : S1.ShapeCasts S1x1)
    (hb1 : S1x1.Broadcasts S1024x1) (hb2 : S1024x1.Broadcasts S1024x256) (hr2 : S1024x256.Reduces [0] S256)
    (hc2 : S256.ShapeCasts S1x256) (hb3 : S1x256.Broadcasts S1024x256) (n : Fin 1024) (e : Fin 256) :
    broadcastTo S1024x256 (shapeCast S1x256 (multiReduction .add [0] S256 (mulf K (broadcastTo S1024x256
        (divf ex (broadcastTo S1024x1 (shapeCast S1x1 (multiReduction .add [0] S1 ex 0x00000000#32 hr1 hφ hacc) hc1) hb1)) hb2))
        0x00000000#32 hr2 hφ hacc) hc2) hb3 (ix2 n e)
      = context (fun m e => K (ix2 m e))
          (fun m => Ideal.div (ex (ix2 m (0 : Fin 1))) (∑ k : Fin 1024, ex (ix2 k (0 : Fin 1)))) e := by
  rw [broadcastTo_1b_ab_apply, shapeCast_a_1a_apply, RowColumn.multiReduction_add_rows]
  unfold context
  refine Finset.sum_congr rfl fun m _ => ?_
  rw [mulf_apply, Column.broadcastTo_a1_ab_apply, divf_apply, broadcastTo_1b_ab_apply, shapeCast_a_1a_apply,
    RowColumn.multiReduction_add_rows]

/-- From keys `K`, rectified values `V` and the numerators' column `ex`: the stored row is the values scaled by the context,
    through the output weights, plus the output bias row. -/
theorem pay1_apply (K V : FVec Ideal S1024x256 .f32) (ex : FVec Ideal S1024x1 .f32) (wo : Vec Ideal S256x256 .f32)
    (bo : Vec Ideal S1x256 .f32) (n : Fin 1024) (j : Fin 256) :
    k0_pay1 K V ex wo bo (ix3 (0 : Fin 1) n j)
      = Attn.affine (fun n e => V (ix2 n e) * context (fun m e => K (ix2 m e))
            (fun m => Ideal.div (ex (ix2 m (0 : Fin 1))) (∑ k : Fin 1024, ex (ix2 k (0 : Fin 1)))) e)
          (fun e j => wo (ix2 e j)) (fun j => bo (ix2 (0 : Fin 1) j)) n j := by
  unfold k0_pay1
  rw [shapeCast_ab_1ab_apply]
  refine (Affine.body_apply none _ _ _ _ _ n j).trans ?_
  rw [Affine.affine_ix2, shapeCast_self]
  unfold Attn.affine
  refine congrArg (· + bo (ix2 (0 : Fin 1) j)) (Finset.sum_congr rfl fun e _ => ?_)
  rw [truncf_apply]
  refine congrArg (· * wo (ix2 e j)) ?_
  exact congrArg (V (ix2 n e) * ·) (context_apply K ex _ _ _ _ _ _ _ _ _ n e)

/-! ## What the body stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, at `(0, n, j)`: the slab map of the loaded blocks at row `n`, column `j`. -/
theorem out_apply (x0 : Vec Ideal S1x1024x256 .f32) (x1 : Vec Ideal S1x256 .f32) (x2 : Vec Ideal S1x1 .f32)
    (x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (n : Fin 1024) (j : Fin 256) :
    out0_9 x0 x1 x2 x3 x4 x5 x6 x7 x8 (ix3 (0 : Fin 1) n j)
      = attn (fun n d => x0 (ix3 (0 : Fin 1) n d)) (fun d => x1 (ix2 (0 : Fin 1) d)) (x2 (ix2 (0 : Fin 1) (0 : Fin 1)))
          (fun d e => x3 (ix2 d e)) (fun e => x4 (ix2 (0 : Fin 1) e)) (fun d e => x5 (ix2 d e)) (fun e => x6 (ix2 (0 : Fin 1) e))
          (fun e j => x7 (ix2 e j)) (fun j => x8 (ix2 (0 : Fin 1) j)) n j := by
  unfold out0_9
  rw [View.canon_unit_zero hz3]
  simp only [View.ld_unit_zero (S := S1x1024x256) hz3, View.ld_unit_zero (S := S1x256) hz2, View.ld_unit_zero (S := S1x1) hz2,
    View.ld_unit_zero (S := S256x256) hz2]
  rw [pay1_apply]
  simp only [pay4_apply, pay5_apply, pay6_apply]
  rfl

end Cert.KernelIdeal.Body

end
-- ==== Proof.Region.lean ====
/-
  From blocks to the array. The grid has 128 points; point `t` stages slab `t` of the recast input and the whole of every
  other operand, and writes back slab `t` of the result. So what point `t` writes back is block `t` of ONE function of
  the arrays the region finds — the slab map of the specification applied to slab `i₀` at row `i₁`, column `i₂` — and, the
  128 blocks tiling the result array, the array ends holding that function.
-/
import proofs.«118115_j57346403336825_1_alg».proof.Proof.Gen.KernelIdeal.Frame
import proofs.«118115_j57346403336825_1_alg».proof.Proof.KernelBody
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ)

/-- The slab a grid point works on. -/
def slab (t : Fin cfg0.N) : Fin 128 := ⟨t.val, Nat.lt_of_lt_of_eq t.isLt N_0⟩

/-- The printed index maps over the grid: the input's and the result's block index is `(t, 0, 0)`, every other operand's is zero. -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each operand's block at a point, read off its array -/

/-- The input's block at point `t` is slab `t`. -/
theorem iblk0_apply (c : Dev nD) (t : Fin cfg0.N) (u : Fin 1) (n : Fin 1024) (d : Fin 256) :
    (iblk m c 0 t : Vec Ideal S1x1024x256 .f32) (ix3 u n d) = (V m c main_v0 : S128x1024x256.Idx → EReal) (ix3 (slab t) n d) := by
  obtain ⟨e0, e1, e2, -⟩ := idx_facts t
  unfold iblk
  rw [View.read_apply]
  refine congrArg (V m c main_v0 : S128x1024x256.Idx → EReal) ?_
  funext a
  apply Fin.ext
  have hu : u.val = 0 := by omega
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 256 + 1 * d.val = d.val; omega

/-! Every other operand's block is the whole operand. -/

theorem iblk1_apply (c : Dev nD) (t : Fin cfg0.N) (u : Fin 1) (d : Fin 256) :
    (iblk m c 1 t : Vec Ideal S1x256 .f32) (ix2 u d) = (V m c main_v2 : S1x256.Idx → EReal) (ix2 u d) := by
  have hf := idx_facts t
  unfold iblk
  rw [View.read_apply]
  refine congrArg (V m c main_v2 : S1x256.Idx → EReal) ?_
  funext a
  apply Fin.ext
  match a with
  | ⟨0, _⟩ => show win0_1.index t (0 : Fin 2) * 1 + 1 * u.val = u.val; omega
  | ⟨1, _⟩ => show win0_1.index t (1 : Fin 2) * 256 + 1 * d.val = d.val; omega

theorem iblk2_apply (c : Dev nD) (t : Fin cfg0.N) (u : Fin 1) (v : Fin 1) :
    (iblk m c 2 t : Vec Ideal S1x1 .f32) (ix2 u v) = (V m c main_v6 : S1x1.Idx → EReal) (ix2 u v) := by
  have hf := idx_facts t
  unfold iblk
  rw [View.read_apply]
  refine congrArg (V m c main_v6 : S1x1.Idx → EReal) ?_
  funext a
  apply Fin.ext
  match a with
  | ⟨0, _⟩ => show win0_2.index t (0 : Fin 2) * 1 + 1 * u.val = u.val; omega
  | ⟨1, _⟩ => show win0_2.index t (1 : Fin 2) * 1 + 1 * v.val = v.val; omega

theorem iblk3_apply (c : Dev nD) (t : Fin cfg0.N) (d : Fin 256) (e : Fin 256) :
    (iblk m c 3 t : Vec Ideal S256x256 .f32) (ix2 d e) = (V m c main_v3 : S256x256.Idx → EReal) (ix2 d e) := by
  have hf := idx_facts t
  unfold iblk
  rw [View.read_apply]
  refine congrArg (V m c main_v3 : S256x256.Idx → EReal) ?_
  funext a
  apply Fin.ext
  match a with
  | ⟨0, _⟩ => show win0_3.index t (0 : Fin 2) * 256 + 1 * d.val = d.val; omega
  | ⟨1, _⟩ => show win0_3.index t (1 : Fin 2) * 256 + 1 * e.val = e.val; omega

theorem iblk4_apply (c : Dev nD) (t : Fin cfg0.N) (u : Fin 1) (e : Fin 256) :
    (iblk m c 4 t : Vec Ideal S1x256 .f32) (ix2 u e) = (V m c main_v8 : S1x256.Idx → EReal) (ix2 u e) := by
  have hf := idx_facts t
  unfold iblk
  rw [View.read_apply]
  refine congrArg (V m c main_v8 : S1x256.Idx → EReal) ?_
  funext a
  apply Fin.ext
  match a with
  | ⟨0, _⟩ => show win0_4.index t (0 : Fin 2) * 1 + 1 * u.val = u.val; omega
  | ⟨1, _⟩ => show win0_4.index t (1 : Fin 2) * 256 + 1 * e.val = e.val; omega

theorem iblk5_apply (c : Dev nD) (t : Fin cfg0.N) (d : Fin 256) (e : Fin 256) :
    (iblk m c 5 t : Vec Ideal S256x256 .f32) (ix2 d e) = (V m c main_v4 : S256x256.Idx → EReal) (ix2 d e) := by
  have hf := idx_facts t
  unfold iblk
  rw [View.read_apply]
  refine congrArg (V m c main_v4 : S256x256.Idx → EReal) ?_
  funext a
  apply Fin.ext
  match a with
  | ⟨0, _⟩ => show win0_5.index t (0 : Fin 2) * 256 + 1 * d.val = d.val; omega
  | ⟨1, _⟩ => show win0_5.index t (1 : Fin 2) * 256 + 1 * e.val = e.val; omega

theorem iblk6_apply (c : Dev nD) (t : Fin cfg0.N) (u : Fin 1) (e : Fin 256) :
    (iblk m c 6 t : Vec Ideal S1x256 .f32) (ix2 u e) = (V m c main_v10 : S1x256.Idx → EReal) (ix2 u e) := by
  have hf := idx_facts t
  unfold iblk
  rw [View.read_apply]
  refine congrArg (V m c main_v10 : S1x256.Idx → EReal) ?_
  funext a
  apply Fin.ext
  match a with
  | ⟨0, _⟩ => show win0_6.index t (0 : Fin 2) * 1 + 1 * u.val = u.val; omega
  | ⟨1, _⟩ => show win0_6.index t (1 : Fin 2) * 256 + 1 * e.val = e.val; omega

theorem iblk7_apply (c : Dev nD) (t : Fin cfg0.N) (d : Fin 256) (e : Fin 256) :
    (iblk m c 7 t : Vec Ideal S256x256 .f32) (ix2 d e) = (V m c main_arg3 : S256x256.Idx → EReal) (ix2 d e) := by
  have hf := idx_facts t
  unfold iblk
  rw [View.read_apply]
  refine congrArg (V m c main_arg3 : S256x256.Idx → EReal) ?_
  funext a
  apply Fin.ext
  match a with
  | ⟨0, _⟩ => show win0_7.index t (0 : Fin 2) * 256 + 1 * d.val = d.val; omega
  | ⟨1, _⟩ => show win0_7.index t (1 : Fin 2) * 256 + 1 * e.val = e.val; omega

theorem iblk8_apply (c : Dev nD) (t : Fin cfg0.N) (u : Fin 1) (e : Fin 256) :
    (iblk m c 8 t : Vec Ideal S1x256 .f32) (ix2 u e) = (V m c main_v11 : S1x256.Idx → EReal) (ix2 u e) := by
  have hf := idx_facts t
  unfold iblk
  rw [View.read_apply]
  refine congrArg (V m c main_v11 : S1x256.Idx → EReal) ?_
  funext a
  apply Fin.ext
  match a with
  | ⟨0, _⟩ => show win0_8.index t (0 : Fin 2) * 1 + 1 * u.val = u.val; omega
  | ⟨1, _⟩ => show win0_8.index t (1 : Fin 2) * 256 + 1 * e.val = e.val; omega

/-! ## The result array as one function of the arrays the region finds -/

/-- The result array: at slab `i₀`, row `i₁`, column `i₂`, the slab map of that slab of the recast input and the other operands. -/
def G (c : Dev nD) : S128x1024x256.Idx → EReal := fun i =>
  attn (fun n d => (V m c main_v0 : S128x1024x256.Idx → EReal) (ix3 (⟨(i 0).val, (i 0).isLt⟩ : Fin 128) n d))
    (fun d => (V m c main_v2 : S1x256.Idx → EReal) (ix2 (0 : Fin 1) d))
    ((V m c main_v6 : S1x1.Idx → EReal) (ix2 (0 : Fin 1) (0 : Fin 1)))
    (fun d e => (V m c main_v3 : S256x256.Idx → EReal) (ix2 d e))
    (fun e => (V m c main_v8 : S1x256.Idx → EReal) (ix2 (0 : Fin 1) e))
    (fun d e => (V m c main_v4 : S256x256.Idx → EReal) (ix2 d e))
    (fun e => (V m c main_v10 : S1x256.Idx → EReal) (ix2 (0 : Fin 1) e))
    (fun e j => (V m c main_arg3 : S256x256.Idx → EReal) (ix2 e j))
    (fun j => (V m c main_v11 : S1x256.Idx → EReal) (ix2 (0 : Fin 1) j))
    (⟨(i 1).val, (i 1).isLt⟩ : Fin 1024) (⟨(i 2).val, (i 2).isLt⟩ : Fin 256)

theorem G_ix3 (c : Dev nD) (s : Fin 128) (n : Fin 1024) (j : Fin 256) :
    G m c (ix3 s n j)
      = attn (fun n d => (V m c main_v0 : S128x1024x256.Idx → EReal) (ix3 s n d))
          (fun d => (V m c main_v2 : S1x256.Idx → EReal) (ix2 (0 : Fin 1) d))
          ((V m c main_v6 : S1x1.Idx → EReal) (ix2 (0 : Fin 1) (0 : Fin 1)))
          (fun d e => (V m c main_v3 : S256x256.Idx → EReal) (ix2 d e))
          (fun e => (V m c main_v8 : S1x256.Idx → EReal) (ix2 (0 : Fin 1) e))
          (fun d e => (V m c main_v4 : S256x256.Idx → EReal) (ix2 d e))
          (fun e => (V m c main_v10 : S1x256.Idx → EReal) (ix2 (0 : Fin 1) e))
          (fun e j => (V m c main_arg3 : S256x256.Idx → EReal) (ix2 e j))
          (fun j => (V m c main_v11 : S1x256.Idx → EReal) (ix2 (0 : Fin 1) j)) n j := rfl

/-- The body's output block at point `t`, at `(u, n, j)`: the result function at slab `t`. -/
theorem after_apply (c : Dev nD) (t : Fin cfg0.N) (u : Fin 1) (n : Fin 1024) (j : Fin 256) :
    out0_9 (iblk m c 0 t) (iblk m c 1 t) (iblk m c 2 t) (iblk m c 3 t) (iblk m c 4 t) (iblk m c 5 t) (iblk m c 6 t)
        (iblk m c 7 t) (iblk m c 8 t) (ix3 u n j) = G m c (ix3 (slab t) n j) := by
  rw [Body.fin1_eq u]
  refine (Body.out_apply (iblk m c 0 t) (iblk m c 1 t) (iblk m c 2 t) (iblk m c 3 t) (iblk m c 4 t) (iblk m c 5 t)
    (iblk m c 6 t) (iblk m c 7 t) (iblk m c 8 t) n j).trans ?_
  rw [G_ix3]
  simp only [iblk0_apply, iblk1_apply, iblk2_apply, iblk3_apply, iblk4_apply, iblk5_apply, iblk6_apply, iblk7_apply, iblk8_apply]

/-- What point `t` writes back is block `t` of the result function. -/
theorem flushed_eq (c : Dev nD) (t : Fin cfg0.N) :
    (dats m 0 c).flushed 9 t = ((cfg0.win 9).blk t).view.read (Elt Ideal) (G m c) := by
  obtain ⟨-, -, -, e0, e1, e2, -⟩ := idx_facts t
  show (cfg0.win 9).cut (grid0.coords t) ((dats m 0 c).after 9 t) = _
  rw [after0_9]
  funext y
  obtain ⟨u, n, j, rfl⟩ : ∃ (u : Fin 1) (n : Fin 1024) (j : Fin 256), y = ix3 u n j := ⟨y 0, y 1, y 2, eq_ix3 y⟩
  rw [View.read_apply]
  have hemb : ((cfg0.win 9).blk t).view.emb (ix3 u n j) = ix3 (slab t) n j := by
    funext a
    apply Fin.ext
    have hu : u.val = 0 := by omega
    match a with
    | ⟨0, _⟩ => show win0_9.index t (0 : Fin 3) * 1 + 1 * u.val = t.val; omega
    | ⟨1, _⟩ => show win0_9.index t (1 : Fin 3) * 1024 + 1 * n.val = n.val; omega
    | ⟨2, _⟩ => show win0_9.index t (2 : Fin 3) * 256 + 1 * j.val = j.val; omega
  rw [hemb]
  exact after_apply m c t u n j

/-- An index of the result array is in point `t`'s block iff each coordinate is in the block's range on its axis. -/
theorem mem_blk (t : Fin cfg0.N) (i : S128x1024x256.Idx) :
    i ∈ ((cfg0.win 9).blk t).view.set ↔ ∀ a : Fin 3, win0_9.index t a * S1x1024x256.size a ≤ (i a).val
      ∧ (i a).val < win0_9.index t a * S1x1024x256.size a + S1x1024x256.size a := by
  show i ∈ ((View.whole main_v12).slice (win0_9.rect t)).set ↔ _
  rw [View.set_slice_whole, Rect.mem_set_unit]
  exact Iff.rfl

/-- The 128 blocks tile the result array: slab `i₀` is point `i₀`'s. -/
theorem cover (i : S128x1024x256.Idx) :
    ∃ t : Fin cfg0.N, (cfg0.win 9).flush t = true ∧ i ∈ ((cfg0.win 9).blk t).view.set := by
  have h0 : (i 0).val < 128 := (i 0).isLt
  have h1 : (i 1).val < 1024 := (i 1).isLt
  have h2 : (i 2).val < 256 := (i 2).isLt
  let t : Fin cfg0.N := ⟨(i 0).val, Nat.lt_of_lt_of_eq h0 N_0.symm⟩
  obtain ⟨-, -, -, e0, e1, e2, -⟩ := idx_facts t
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1
              rw [e0]; show (i 0).val * 1 ≤ (i 0).val ∧ (i 0).val < (i 0).val * 1 + 1; omega
  | ⟨1, _⟩ => show win0_9.index t (1 : Fin 3) * 1024 ≤ (i 1).val ∧ (i 1).val < win0_9.index t (1 : Fin 3) * 1024 + 1024
              rw [e1]; omega
  | ⟨2, _⟩ => show win0_9.index t (2 : Fin 3) * 256 ≤ (i 2).val ∧ (i 2).val < win0_9.index t (2 : Fin 3) * 256 + 256
              rw [e2]; omega

/-- The result array after the run is the result function of the arrays the region finds. -/
theorem final (c : Dev nD) : (dats m 0 c).arrAt 9 cfg0.N = G m c :=
  (dats m 0 c).arrAt_eq_of_cover 9 (G m c) (fun t _ => flushed_eq m c t) (cover)

end Cert.KernelIdeal.Region

end
-- ==== Proof.Entry.lean ====
/-
  The arrays the region finds. Before the region the host cuts the fused projection's weights and bias into their three
  parts and recasts every operand: the input `[32, 4, 1024, 256]` is read as 128 slabs (slab `4·b + p` is `(b, p)`); column 0
  of the fused weights, transposed, is the logit weight row; columns 1…256 and 257…512 are the key and value weights;
  entries 0, 1…256 and 257…512 of the fused bias are the logit bias (as a `[1, 1]` array) and the key and value bias rows;
  the output bias is recast as a row. Each is read here at an index given by coordinates.
-/
import proofs.«118115_j57346403336825_1_alg».proof.Proof.Gen.KernelIdeal.Frame
import proofs.«118115_j57346403336825_1_alg».proof.Proof.LibRowReduce
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## Each operand of the region as the host operations' term of the arguments -/

theorem V_v0 (c : Dev nD) : (V m c main_v0 : S128x1024x256.Idx → EReal)
    = shapeCast S128x1024x256 (m ((c : Thread nD τ).loc main_arg0)) shapeCasts_S32x4x1024x256_S128x1024x256 := by
  show StableHlo.after hostOps0 (fun b => m (c, b)) (Proc.devRef .tc main_v0) = _
  after_results <;> rfl

theorem V_v2 (c : Dev nD) : (V m c main_v2 : S1x256.Idx → EReal)
    = transpose S1x256 [1, 0] (extractStridedSlice S256x1 ![0, 0] (m ((c : Thread nD τ).loc main_arg1)) slices_S256x513_S256x1_0_0)
        transposes_S256x1_S1x256_1_0 := by
  show StableHlo.after hostOps0 (fun b => m (c, b)) (Proc.devRef .tc main_v2) = _
  after_results <;> rfl

theorem V_v6 (c : Dev nD) : (V m c main_v6 : S1x1.Idx → EReal)
    = shapeCast S1x1 (extractStridedSlice S1 ![0] (m ((c : Thread nD τ).loc main_arg2)) slices_S513_S1_0) shapeCasts_S1_S1x1 := by
  show StableHlo.after hostOps0 (fun b => m (c, b)) (Proc.devRef .tc main_v6) = _
  after_results <;> rfl

theorem V_v3 (c : Dev nD) : (V m c main_v3 : S256x256.Idx → EReal)
    = extractStridedSlice S256x256 ![0, 1] (m ((c : Thread nD τ).loc main_arg1)) slices_S256x513_S256x256_0_1 := by
  show StableHlo.after hostOps0 (fun b => m (c, b)) (Proc.devRef .tc main_v3) = _
  after_results <;> rfl

theorem V_v8 (c : Dev nD) : (V m c main_v8 : S1x256.Idx → EReal)
    = shapeCast S1x256 (extractStridedSlice S256 ![1] (m ((c : Thread nD τ).loc main_arg2)) slices_S513_S256_1) shapeCasts_S256_S1x256 := by
  show StableHlo.after hostOps0 (fun b => m (c, b)) (Proc.devRef .tc main_v8) = _
  after_results <;> rfl

theorem V_v4 (c : Dev nD) : (V m c main_v4 : S256x256.Idx → EReal)
    = extractStridedSlice S256x256 ![0, 257] (m ((c : Thread nD τ).loc main_arg1)) slices_S256x513_S256x256_0_257 := by
  show StableHlo.after hostOps0 (fun b => m (c, b)) (Proc.devRef .tc main_v4) = _
  after_results <;> rfl

theorem V_v10 (c : Dev nD) : (V m c main_v10 : S1x256.Idx → EReal)
    = shapeCast S1x256 (extractStridedSlice S256 ![257] (m ((c : Thread nD τ).loc main_arg2)) slices_S513_S256_257) shapeCasts_S256_S1x256 := by
  show StableHlo.after hostOps0 (fun b => m (c, b)) (Proc.devRef .tc main_v10) = _
  after_results <;> rfl

theorem V_v11 (c : Dev nD) : (V m c main_v11 : S1x256.Idx → EReal)
    = shapeCast S1x256 (m ((c : Thread nD τ).loc main_arg4)) shapeCasts_S256_S1x256 := by
  show StableHlo.after hostOps0 (fun b => m (c, b)) (Proc.devRef .tc main_v11) = _
  after_results <;> rfl

/-! ## The operands at an index -/

/-- Slab `4·b + p` of the recast input is the input's `(b, p)`. -/
theorem V_v0_apply (c : Dev nD) (b : Fin 32) (p : Fin 4) (t : Fin 128) (ht : t.val = 4 * b.val + p.val) (n : Fin 1024) (d : Fin 256) :
    (V m c main_v0 : S128x1024x256.Idx → EReal) (ix3 t n d)
      = (m ((c : Thread nD τ).loc main_arg0) : S32x4x1024x256.Idx → EReal) (ix4 b p n d) := by
  rw [V_v0]
  refine shapeCast_apply _ _ _ _ ?_
  show (S32x4x1024x256.rowMajor (ix4 b p n d)).val = (S128x1024x256.rowMajor (ix3 t n d)).val
  rw [Shape.rowMajor_val_four, Shape.rowMajor_val_three]
  show ((b.val * 4 + p.val) * 1024 + n.val) * 256 + d.val = (t.val * 1024 + n.val) * 256 + d.val
  rw [ht, Nat.mul_comm 4 b.val]

/-- The logit weight row: column 0 of the fused weights. -/
theorem V_v2_apply (c : Dev nD) (d : Fin 256) :
    (V m c main_v2 : S1x256.Idx → EReal) (ix2 (0 : Fin 1) d)
      = (m ((c : Thread nD τ).loc main_arg1) : S256x513.Idx → EReal) (ix2 d (0 : Fin 513)) := by
  rw [V_v2, RowReduce.transpose_10_apply]
  exact slice2_axis1_apply 0 _ _ d (0 : Fin 1) (0 : Fin 513) rfl

/-- The logit bias: entry 0 of the fused bias. -/
theorem V_v6_apply (c : Dev nD) :
    (V m c main_v6 : S1x1.Idx → EReal) (ix2 (0 : Fin 1) (0 : Fin 1))
      = (m ((c : Thread nD τ).loc main_arg2) : S513.Idx → EReal) (ix1 (0 : Fin 513)) := by
  rw [V_v6, shapeCast_a_1a_apply]
  exact extractStridedSlice_apply _ _ _ _ (ix1 (0 : Fin 513)) (fun a => by match a with | ⟨0, _⟩ => rfl)

/-- The key weights: columns 1…256 of the fused weights. -/
theorem V_v3_apply (c : Dev nD) (d e : Fin 256) :
    (V m c main_v3 : S256x256.Idx → EReal) (ix2 d e)
      = (m ((c : Thread nD τ).loc main_arg1) : S256x513.Idx → EReal) (ix2 d (⟨e.val + 1, by have := e.isLt; omega⟩ : Fin 513)) := by
  rw [V_v3]
  exact slice2_axis1_apply 1 _ _ d e _ (Nat.add_comm _ _)

/-- The key bias row: entries 1…256 of the fused bias. -/
theorem V_v8_apply (c : Dev nD) (e : Fin 256) :
    (V m c main_v8 : S1x256.Idx → EReal) (ix2 (0 : Fin 1) e)
      = (m ((c : Thread nD τ).loc main_arg2) : S513.Idx → EReal) (ix1 (⟨e.val + 1, by have := e.isLt; omega⟩ : Fin 513)) := by
  rw [V_v8, shapeCast_a_1a_apply]
  exact extractStridedSlice_apply _ _ _ _ (ix1 (⟨e.val + 1, by have := e.isLt; omega⟩ : Fin 513))
    (fun a => by match a with | ⟨0, _⟩ => exact Nat.add_comm _ _)

/-- The value weights: columns 257…512 of the fused weights. -/
theorem V_v4_apply (c : Dev nD) (d e : Fin 256) :
    (V m c main_v4 : S256x256.Idx → EReal) (ix2 d e)
      = (m ((c : Thread nD τ).loc main_arg1) : S256x513.Idx → EReal) (ix2 d (⟨e.val + 257, by have := e.isLt; omega⟩ : Fin 513)) := by
  rw [V_v4]
  exact slice2_axis1_apply 257 _ _ d e _ (Nat.add_comm _ _)

/-- The value bias row: entries 257…512 of the fused bias. -/
theorem V_v10_apply (c : Dev nD) (e : Fin 256) :
    (V m c main_v10 : S1x256.Idx → EReal) (ix2 (0 : Fin 1) e)
      = (m ((c : Thread nD τ).loc main_arg2) : S513.Idx → EReal) (ix1 (⟨e.val + 257, by have := e.isLt; omega⟩ : Fin 513)) := by
  rw [V_v10, shapeCast_a_1a_apply]
  exact extractStridedSlice_apply _ _ _ _ (ix1 (⟨e.val + 257, by have := e.isLt; omega⟩ : Fin 513))
    (fun a => by match a with | ⟨0, _⟩ => exact Nat.add_comm _ _)

/-- The output bias as a row. -/
theorem V_v11_apply (c : Dev nD) (e : Fin 256) :
    (V m c main_v11 : S1x256.Idx → EReal) (ix2 (0 : Fin 1) e)
      = (m ((c : Thread nD τ).loc main_arg4) : S256.Idx → EReal) (ix1 e) := by
  rw [V_v11, shapeCast_a_1a_apply]

end Cert.KernelIdeal.Entry

end
-- ==== Proof.Tail.lean ====
/-
  The host operation after the region. The region leaves its result array as 128 slabs of 1024 rows and 256 columns;
  the one operation that follows reads that array back, in row-major order, at the shape [32, 4, 1024, 256]: slab
  4·b + p is the slab of batch b, patch p. So the program's result at (b, p, n, j) is the region's result array at
  (4·b + p, n, j), and every argument array ends as it was launched.
-/
import proofs.«118115_j57346403336825_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Tail

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The program's result buffer after the operation that follows the region: the region's result array read back at the
    shape [32, 4, 1024, 256]. -/
theorem tail_eq (c : Dev nD) :
    (Pipeline.afterTail₀ cfgs (dats m) 0 (V0 m) [hostOps1] c main_v13 : S32x4x1024x256.Idx → EReal)
      = shapeCast S32x4x1024x256 ((dats m 0 c).arrAt 9 cfg0.N : S128x1024x256.Idx → EReal)
          shapeCasts_S128x1024x256_S32x4x1024x256 := by
  unfold Pipeline.afterTail₀
  show StableHlo.after hostOps1 _ (Proc.devRef .tc main_v13) = _
  after_results
  exact congrArg (fun A : S128x1024x256.Idx → EReal => shapeCast S32x4x1024x256 A shapeCasts_S128x1024x256_S32x4x1024x256)
    (Pipeline.withArrays_arr spec0 launch0.win.arr_inj c _ _ 9)

/-- The read back at coordinates: entry (b, p, n, j) of the result is entry (t, n, j) of the slab array, t = 4·b + p. -/
theorem recast_apply (A : S128x1024x256.Idx → EReal) (b : Fin 32) (p : Fin 4) (t : Fin 128) (ht : t.val = 4 * b.val + p.val)
    (n : Fin 1024) (j : Fin 256) :
    shapeCast S32x4x1024x256 A shapeCasts_S128x1024x256_S32x4x1024x256 (ix4 b p n j) = A (ix3 t n j) :=
  shapeCast_apply A shapeCasts_S128x1024x256_S32x4x1024x256 (ix4 b p n j) (ix3 t n j) (by
    rw [Shape.rowMajor_val_three, Shape.rowMajor_val_four]
    show (t.val * 1024 + n.val) * 256 + j.val = ((b.val * 4 + p.val) * 1024 + n.val) * 256 + j.val
    rw [ht, Nat.mul_comm 4 b.val])

/-- THE RUN: from any memory with zero counters every weakly fair execution of the program terminates, its result buffer
    holds the region's result array read back at the shape [32, 4, 1024, 256], and every argument array is as launched. -/
theorem run : θ_run defs (onTc (τ := τ) (main (F := Ideal))) ⟨m, fun _ => 0, ρ⟩ (fun r => ∀ c : Dev nD,
      r.2.mem ((c.tc : Thread nD τ).loc main_v13)
        = shapeCast S32x4x1024x256 ((dats m 0 c).arrAt 9 cfg0.N : S128x1024x256.Idx → EReal)
            shapeCasts_S128x1024x256_S32x4x1024x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 7).trans (((dats m 0 c).arrAt_in 7 rfl _).trans ((A_eq m c 7).trans (V_main_arg3 m c))),
      ((h c).2 main_arg4 (Pipeline.mem_restRefs_of main_arg4 (by decide) (by decide))).trans (W_main_arg4 m (dats m) c)⟩)
    (run_main m ρ)

end Cert.KernelIdeal.Tail

end
-- ==== Proof.Bridge.lean ====
/-
  The kernel's result as the specification's slab map of the ARGUMENTS. The result array of 128 slabs, read back as
  `[32, 4, 1024, 256]`, holds at `(b, p, n, j)` the slab map at slab `4·b + p`, row `n`, column `j` of the arrays the region
  finds; and those are the arguments recast: slab `4·b + p` of the input is its `(b, p)`, the logit, key and value weights
  and biases are the three column ranges of the fused weights and bias, the output weights are the argument itself.
-/
import proofs.«118115_j57346403336825_1_alg».proof.Proof.Region
import proofs.«118115_j57346403336825_1_alg».proof.Proof.Entry
import proofs.«118115_j57346403336825_1_alg».proof.Proof.Tail

noncomputable section

namespace Cert.KernelIdeal.Bridge

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (ρ : Dev nD → PrngReg)

/-- The slab of batch `b`, patch `p`. -/
def slabOf (b : Fin 32) (p : Fin 4) : Fin 128 := ⟨4 * b.val + p.val, by have := b.isLt; have := p.isLt; omega⟩

/-- The kernel's result, as a function of the arguments. -/
def result (c : Dev nD) : S32x4x1024x256.Idx → EReal :=
  shapeCast S32x4x1024x256 (Region.G m c) shapeCasts_S128x1024x256_S32x4x1024x256

/-- At `(b, p, n, j)` it is the slab map of the arguments. -/
theorem result_apply (c : Dev nD) (b : Fin 32) (p : Fin 4) (n : Fin 1024) (j : Fin 256) :
    result m c (ix4 b p n j)
      = attn (fun n d => (m ((c : Thread nD τ).loc main_arg0) : S32x4x1024x256.Idx → EReal) (ix4 b p n d))
          (fun d => (m ((c : Thread nD τ).loc main_arg1) : S256x513.Idx → EReal) (ix2 d (0 : Fin 513)))
          ((m ((c : Thread nD τ).loc main_arg2) : S513.Idx → EReal) (ix1 (0 : Fin 513)))
          (fun d e => (m ((c : Thread nD τ).loc main_arg1) : S256x513.Idx → EReal) (ix2 d (⟨e.val + 1, by have := e.isLt; omega⟩ : Fin 513)))
          (fun e => (m ((c : Thread nD τ).loc main_arg2) : S513.Idx → EReal) (ix1 (⟨e.val + 1, by have := e.isLt; omega⟩ : Fin 513)))
          (fun d e => (m ((c : Thread nD τ).loc main_arg1) : S256x513.Idx → EReal) (ix2 d (⟨e.val + 257, by have := e.isLt; omega⟩ : Fin 513)))
          (fun e => (m ((c : Thread nD τ).loc main_arg2) : S513.Idx → EReal) (ix1 (⟨e.val + 257, by have := e.isLt; omega⟩ : Fin 513)))
          (fun d e => (m ((c : Thread nD τ).loc main_arg3) : S256x256.Idx → EReal) (ix2 d e))
          (fun e => (m ((c : Thread nD τ).loc main_arg4) : S256.Idx → EReal) (ix1 e)) n j := by
  unfold result
  rw [Tail.recast_apply (Region.G m c) b p (slabOf b p) rfl n j, Region.G_ix3]
  simp only [Entry.V_v0_apply m c b p (slabOf b p) rfl, Entry.V_v2_apply m c, Entry.V_v6_apply m c, Entry.V_v3_apply m c,
    Entry.V_v8_apply m c, Entry.V_v4_apply m c, Entry.V_v10_apply m c, Entry.V_v11_apply m c, V_main_arg3 m c]

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (by rw [Region.final m c]; rfl), (h c).2⟩) (Tail.run m ρ)

end Cert.KernelIdeal.Bridge

end
-- ==== Proof.lean ====
/-
  Linear self-attention as one Pallas kernel over 128 slabs against its jnp reference, over the extended reals.
  Both programs compute, for every slab of 1024 rows, the same slab map (Proof/Spec.lean): logits by a product with one
  weight column, a softmax of the logits down the rows, keys and rectified values by affine maps of the rows, the context as
  the weighted sum of the keys, and the values scaled by the context through the output weights. The kernel does it slab by
  slab from operands the host has cut out of the fused weights and bias (Proof/KernelBody.lean, Entry.lean, Region.lean,
  Tail.lean, Bridge.lean: its result array as that function of the arguments); the reference does it on the whole
  four-dimensional arrays with one fused projection (Proof/RefValue.lean). The two are equal index by index with no
  algebraic law: every sum, fold, quotient and product is the same in both, only arranged differently; finiteness of the
  inputs is never used. The ideal pass rewrote nothing, so the kernel's idealization is its own text read on the extended
  reals.
-/
import proofs.«118115_j57346403336825_1_alg».proof.Defs
import proofs.«118115_j57346403336825_1_alg».proof.Proof.Gen.Kernel
import proofs.«118115_j57346403336825_1_alg».proof.Proof.Gen.Kernel.Skeleton
import proofs.«118115_j57346403336825_1_alg».proof.Proof.Gen.Kernel.Launch
import proofs.«118115_j57346403336825_1_alg».proof.Proof.Gen.Kernel.Points
import proofs.«118115_j57346403336825_1_alg».proof.Proof.Gen.Kernel.Frame
import proofs.«118115_j57346403336825_1_alg».proof.Proof.Gen.KernelIdeal
import proofs.«118115_j57346403336825_1_alg».proof.Proof.Gen.KernelIdeal.Skeleton
import proofs.«118115_j57346403336825_1_alg».proof.Proof.Gen.KernelIdeal.Launch
import proofs.«118115_j57346403336825_1_alg».proof.Proof.Gen.KernelIdeal.Points
import proofs.«118115_j57346403336825_1_alg».proof.Proof.Gen.KernelIdeal.Frame
import proofs.«118115_j57346403336825_1_alg».proof.Proof.Gen.ReferenceIdeal
import proofs.«118115_j57346403336825_1_alg».proof.Proof.Gen.Pre_finite_inputs
import proofs.«118115_j57346403336825_1_alg».proof.Proof.Gen.ReferenceIdeal.Run
import proofs.«118115_j57346403336825_1_alg».proof.Proof.Gen.ReferenceIdeal.Read
import proofs.«118115_j57346403336825_1_alg».proof.Proof.RefValue
import proofs.«118115_j57346403336825_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the arguments both programs end with the slab map of the arguments at every index. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  funext i
  obtain ⟨b, p, n, j, rfl⟩ : ∃ (b : Fin 32) (p : Fin 4) (n : Fin 1024) (j : Fin 256), i = ix4 b p n j :=
    ⟨i 0, i 1, i 2, i 3, eq_ix4 i⟩
  exact (Cert.ReferenceIdeal.RefValue.result_apply _ _ _ _ _ b p n j).trans
    (Cert.KernelIdeal.Bridge.result_apply m c b p n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
